-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S4x8x256x2048 : Shape := ⟨4, ![4, 8, 256, 2048]⟩
abbrev S8x4x256x2048 : Shape := ⟨4, ![8, 4, 256, 2048]⟩
abbrev S8x1024x2048 : Shape := ⟨3, ![8, 1024, 2048]⟩
abbrev S8x2048x1024 : Shape := ⟨3, ![8, 2048, 1024]⟩
abbrev S4x8x256 : Shape := ⟨3, ![4, 8, 256]⟩
abbrev S8x4x256 : Shape := ⟨3, ![8, 4, 256]⟩
abbrev S8x1024 : Shape := ⟨2, ![8, 1024]⟩
abbrev S512x2048 : Shape := ⟨2, ![512, 2048]⟩
abbrev S1x2048x1024 : Shape := ⟨3, ![1, 2048, 1024]⟩
abbrev S512x256 : Shape := ⟨2, ![512, 256]⟩
abbrev S2048x1024 : Shape := ⟨2, ![2048, 1024]⟩
abbrev S1x1024 : Shape := ⟨2, ![1, 1024]⟩
abbrev S1024 : Shape := ⟨1, ![1024]⟩
abbrev S512x1024 : Shape := ⟨2, ![512, 1024]⟩

abbrev nBuf : Space → Nat
  | .hbm => 23
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S4x8x256x2048, .f32⟩
  | .hbm, ⟨8, _⟩ => ⟨S8x4x256x2048, .f32⟩
  | .hbm, ⟨9, _⟩ => ⟨S8x1024x2048, .f32⟩
  | .hbm, ⟨10, _⟩ => ⟨S8x2048x1024, .f32⟩
  | .hbm, ⟨11, _⟩ => ⟨S8x2048x1024, .bf16⟩
  | .hbm, ⟨12, _⟩ => ⟨S4x8x256x2048, .f32⟩
  | .hbm, ⟨13, _⟩ => ⟨S8x4x256x2048, .f32⟩
  | .hbm, ⟨14, _⟩ => ⟨S8x1024x2048, .f32⟩
  | .hbm, ⟨15, _⟩ => ⟨S8x2048x1024, .f32⟩
  | .hbm, ⟨16, _⟩ => ⟨S8x2048x1024, .bf16⟩
  | .hbm, ⟨17, _⟩ => ⟨S8192, .f32⟩
  | .hbm, ⟨18, _⟩ => ⟨S4x8x256, .f32⟩
  | .hbm, ⟨19, _⟩ => ⟨S8x4x256, .f32⟩
  | .hbm, ⟨20, _⟩ => ⟨S8x1024, .f32⟩
  | .hbm, ⟨21, _⟩ => ⟨S4096x2048, .f32⟩
  | .hbm, ⟨22, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S8x1024, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg0 : BitVec 32 := BitVec.ofNat 32 (i 0).val
  let v9 : Index := Scalar.indexCast arg0
  let c0_11 : Index := 0#32
  ![v9.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S8192x2048_S4x8x256x2048 : S8192x2048.ShapeCasts S4x8x256x2048
  transposes_S4x8x256x2048_S8x4x256x2048_1_0_2_3 : S4x8x256x2048.Transposes [1, 0, 2, 3] S8x4x256x2048
  shapeCasts_S8x4x256x2048_S8x1024x2048 : S8x4x256x2048.ShapeCasts S8x1024x2048
  transposes_S8x1024x2048_S8x2048x1024_0_2_1 : S8x1024x2048.Transposes [0, 2, 1] S8x2048x1024
  bitsLt_bf16_f32 : FTy.bits .bf16 < FTy.bits .f32
  shapeCasts_S8192_S4x8x256 : S8192.ShapeCasts S4x8x256
  transposes_S4x8x256_S8x4x256_1_0_2 : S4x8x256.Transposes [1, 0, 2] S8x4x256
  shapeCasts_S8x4x256_S8x1024 : S8x4x256.ShapeCasts S8x1024
  inb_S512x2048_S512x2048_0_0 : ∀ a, (![0, 0] : Fin 2 → Nat) a + S512x2048.size a ≤ S512x2048.size a
  h_S512x2048 : 0 < S512x2048.numel
  inb_S512x256_S512x256_0_0 : ∀ a, (![0, 0] : Fin 2 → Nat) a + S512x256.size a ≤ S512x256.size a
  h_S512x256 : 0 < S512x256.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  dot_S512x2048_S2048x1024_S512x1024_1_0_0_1_n_n_wf : DotDims.WF S512x2048 S2048x1024 S512x1024 [1] [0] [0] [1] [] []
  hrank0 : 0 < grid0.rank
  k0_off1_inb : ∀ i : grid0.Coords, ∀ a, (k0_off1 i) a + S1x1024.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .bf16 = 32 ∨ (Rect.block (s := S8x2048x1024) S1x2048x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x2048.size a
  hwx0_5 : ∀ i : grid0.Coords, EltTy.bits .f32 = 32 ∨ (Rect.block (s := S4096x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S4096x8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S2048x8192, .f32⟩
  | .hbm, ⟨13, _⟩ => ⟨S4096x8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Spec.lean ====
/-
  The cell as functions of whole arrays, index by index, on the extended reals.

  Inputs: activations `x`, `h` and the previous cell state `c`, each [4096, 2048]; two weight matrices [8192, 2048]
  and two bias vectors [8192]. The 8192 output columns of the affine map are four consecutive groups of 2048: input
  gate, forget gate, candidate, output gate. For batch row `b` and column `n`

    gate b n = ((sum_k x[b,k] * Wx[n,k] + bx[n]) + sum_k h[b,k] * Wh[n,k]) + bh[n]

  and for feature `j`

    c'[b,j] = logistic (gate b (2048 + j)) * c[b,j] + logistic (gate b j) * tanh (gate b (4096 + j))
    h'[b,j] = logistic (gate b (6144 + j)) * tanh (c'[b,j]).
-/
import Idealize.ShloMosaic.PureOps.Ideal
import Idealize.ShloMosaic.Lib.ValueIdx

noncomputable section

namespace Cert.Cell

open Idealize.ShloMosaic Idealize.ShloMosaic.ValueIdx

/-- Activations and cell states: [batch, feature]. -/
abbrev Act : Type := (⟨2, ![4096, 2048]⟩ : Shape).Idx → EReal
/-- A weight matrix: [gate column, input feature]. -/
abbrev Wt : Type := (⟨2, ![8192, 2048]⟩ : Shape).Idx → EReal
/-- A bias vector: [gate column]. -/
abbrev Bs : Type := (⟨1, ![8192]⟩ : Shape).Idx → EReal

/-- Column `g * 2048 + j` of the affine map: feature `j` of gate group `g`. -/
def col (g : Fin 4) (j : Fin 2048) : Fin 8192 :=
  ⟨g.val * 2048 + j.val, by have := g.isLt; have := j.isLt; omega⟩

theorem col_val (g : Fin 4) (j : Fin 2048) : (col g j).val = g.val * 2048 + j.val := rfl

/-- The affine map's entry at batch row `b`, column `n`. -/
def gate (x h : Act) (Wx Wh : Wt) (bx bh : Bs) (b : Fin 4096) (n : Fin 8192) : EReal :=
  (((∑ k : Fin 2048, x (ix2 b k) * Wx (ix2 n k)) + bx (ix1 n)) + ∑ k : Fin 2048, h (ix2 b k) * Wh (ix2 n k)) + bh (ix1 n)

/-- The new cell state at `(b, j)`. -/
def cellC (x h c : Act) (Wx Wh : Wt) (bx bh : Bs) (b : Fin 4096) (j : Fin 2048) : EReal :=
  Ideal.logistic (gate x h Wx Wh bx bh b (col 1 j)) * c (ix2 b j)
    + Ideal.logistic (gate x h Wx Wh bx bh b (col 0 j)) * Ideal.tanh (gate x h Wx Wh bx bh b (col 2 j))

/-- The new hidden state at `(b, j)`. -/
def cellH (x h c : Act) (Wx Wh : Wt) (bx bh : Bs) (b : Fin 4096) (j : Fin 2048) : EReal :=
  Ideal.logistic (gate x h Wx Wh bx bh b (col 3 j)) * Ideal.tanh (cellC x h c Wx Wh bx bh b j)

/-- The new cell state, as an array. -/
def newC (x h c : Act) (Wx Wh : Wt) (bx bh : Bs) : Act := fun i => cellC x h c Wx Wh bx bh (i 0) (i 1)

/-- The new hidden state, as an array. -/
def newH (x h c : Act) (Wx Wh : Wt) (bx bh : Bs) : Act := fun i => cellH x h c Wx Wh bx bh (i 0) (i 1)

theorem newC_ix2 (x h c : Act) (Wx Wh : Wt) (bx bh : Bs) (b : Fin 4096) (j : Fin 2048) :
    newC x h c Wx Wh bx bh (ix2 b j) = cellC x h c Wx Wh bx bh b j := rfl

theorem newH_ix2 (x h c : Act) (Wx Wh : Wt) (bx bh : Bs) (b : Fin 4096) (j : Fin 2048) :
    newH x h c Wx Wh bx bh (ix2 b j) = cellH x h c Wx Wh bx bh b j := rfl

end Cert.Cell

end
-- ==== Proof.Scalar.lean ====
/-
  The two scalar laws of the cell on the extended reals.

  The logistic function: the quotient of one by one plus the exponential of the negated argument, with "one" written as
  the float word of 1.0, is the logistic function at every extended real (at -inf it is 0, at +inf it is 1: the
  quotient's and the exponential's conventions are the logistic's own).

  The gate pre-activation is a sum of four terms — two matrix products and two biases. Addition of extended reals is
  commutative and associative (with -inf absorbing), so the grouping (p + q) + (r + s) and the grouping
  ((p + r) + q) + s are one number; no finiteness is needed.
-/
import Idealize.ShloMosaic.PureOps.Ideal
import Idealize.ShloMosaic.Lib.IdealHost

noncomputable section

namespace Cert.Cell

open Idealize.ShloMosaic

/-- `1 / (1 + exp (-x))`, with both ones the float word `0x3F800000`, is the logistic function of `x`. -/
theorem logistic_spelt (x : EReal) :
    Ideal.div (Ideal.ofBits .f32 0x3F800000#32) (Ideal.ofBits .f32 0x3F800000#32 + Ideal.exp (-x)) = Ideal.logistic x := by
  rw [Ideal.ofBits_one_f32]
  rfl

/-- Two products first and two biases second, or product, bias, product, bias from the left: one sum. -/
theorem add_regroup (p r q s : EReal) : (p + r) + (q + s) = ((p + q) + r) + s := by
  rw [add_add_add_comm, ← add_assoc]

end Cert.Cell

end
-- ==== Proof.RefSide.lean ====
/-
  The reference computes the cell of Spec.lean.

  Its affine map is one matrix product per operand against the transposed weight matrix, each followed by its bias
  broadcast over the batch rows, summed from the left: at row `b`, column `n` that is `gate b n` as written. The four
  gates are the column slices at offsets 0, 2048, 4096 and 6144. The logistic function is spelt
  1 / (1 + exp (-g)), which is the logistic function (Scalar.lean), and the rest is the cell's two products and sum and
  the hyperbolic tangent, operation for operation.
-/
import proofs.«154391_j67078799229551_2_alg».proof.Proof.Gen.ReferenceIdeal.Read
import proofs.«154391_j67078799229551_2_alg».proof.Proof.Spec
import proofs.«154391_j67078799229551_2_alg».proof.Proof.Scalar

noncomputable section

namespace Cert.Cell.Ref

open Cert.ReferenceIdeal Cert.ReferenceIdeal.Read Idealize.ShloMosaic Idealize.ShloMosaic.ValueIdx Cert.Cell

variable (x0 x1 x2 : Act) (x3 x5 : Wt) (x4 x6 : Bs)

/-- The summed affine map at row `b`, column `n`. -/
theorem gate_eq (b : Fin 4096) (n : Fin 8192) :
    val_main_v10 (F := Ideal) x0 x1 x3 x4 x5 x6 (ix2 b n) = gate x0 x1 x3 x5 x4 x6 b n := by
  have el : ∀ k : Fin 2048, lidx_main_v1 (ix2 b n) k = ix2 b k := fun k => funext fun a => by
    match a with | ⟨0, _⟩ => rfl | ⟨1, _⟩ => rfl
  have er : ∀ k : Fin 2048, idx_main_v0 (ridx_main_v1 (ix2 b n) k) = ix2 n k := fun k => funext fun a => by
    match a with | ⟨0, _⟩ => rfl | ⟨1, _⟩ => rfl
  have el' : ∀ k : Fin 2048, lidx_main_v6 (ix2 b n) k = ix2 b k := fun k => funext fun a => by
    match a with | ⟨0, _⟩ => rfl | ⟨1, _⟩ => rfl
  have er' : ∀ k : Fin 2048, idx_main_v5 (ridx_main_v6 (ix2 b n) k) = ix2 n k := fun k => funext fun a => by
    match a with | ⟨0, _⟩ => rfl | ⟨1, _⟩ => rfl
  have eb : idx_main_v2 (idx_main_v3 (ix2 b n)) = ix1 n := funext fun a => by
    match a with | ⟨0, _⟩ => rfl
  have eb' : idx_main_v8 (idx_main_v9 (ix2 b n)) = ix1 n := funext fun a => by
    match a with | ⟨0, _⟩ => rfl
  rw [val_main_v10_apply, val_main_v7_apply, val_main_v4_apply, val_main_v1_apply, val_main_v6_apply,
    val_main_v3_apply, val_main_v2_apply, val_main_v9_apply, val_main_v8_apply]
  simp only [val_main_v0_apply, val_main_v5_apply, el, er, el', er', eb, eb']
  rfl

/-- The four gates' pre-activations: the column slices. -/
theorem pre_i (b : Fin 4096) (j : Fin 2048) :
    val_main_v11 (F := Ideal) x0 x1 x3 x4 x5 x6 (ix2 b j) = gate x0 x1 x3 x5 x4 x6 b (col 0 j) := by
  have e : idx_main_v11 (ix2 b j) = ix2 b (col 0 j) := funext fun a => by
    match a with
    | ⟨0, _⟩ => rfl
    | ⟨1, _⟩ => exact Fin.ext (by show j.val = 0 * 2048 + j.val; omega)
  rw [val_main_v11_apply, e, gate_eq]

theorem pre_f (b : Fin 4096) (j : Fin 2048) :
    val_main_v12 (F := Ideal) x0 x1 x3 x4 x5 x6 (ix2 b j) = gate x0 x1 x3 x5 x4 x6 b (col 1 j) := by
  have e : idx_main_v12 (ix2 b j) = ix2 b (col 1 j) := funext fun a => by
    match a with
    | ⟨0, _⟩ => rfl
    | ⟨1, _⟩ => exact Fin.ext (by show 2048 + j.val = 1 * 2048 + j.val; omega)
  rw [val_main_v12_apply, e, gate_eq]

theorem pre_g (b : Fin 4096) (j : Fin 2048) :
    val_main_v13 (F := Ideal) x0 x1 x3 x4 x5 x6 (ix2 b j) = gate x0 x1 x3 x5 x4 x6 b (col 2 j) := by
  have e : idx_main_v13 (ix2 b j) = ix2 b (col 2 j) := funext fun a => by
    match a with
    | ⟨0, _⟩ => rfl
    | ⟨1, _⟩ => exact Fin.ext (by show 4096 + j.val = 2 * 2048 + j.val; omega)
  rw [val_main_v13_apply, e, gate_eq]

theorem pre_o (b : Fin 4096) (j : Fin 2048) :
    val_main_v14 (F := Ideal) x0 x1 x3 x4 x5 x6 (ix2 b j) = gate x0 x1 x3 x5 x4 x6 b (col 3 j) := by
  have e : idx_main_v14 (ix2 b j) = ix2 b (col 3 j) := funext fun a => by
    match a with
    | ⟨0, _⟩ => rfl
    | ⟨1, _⟩ => exact Fin.ext (by show 6144 + j.val = 3 * 2048 + j.val; omega)
  rw [val_main_v14_apply, e, gate_eq]

/-- The input gate: the logistic function of its pre-activation. -/
theorem sig_i (b : Fin 4096) (j : Fin 2048) :
    val_main_v20 (F := Ideal) x0 x1 x3 x4 x5 x6 (ix2 b j) = Ideal.logistic (gate x0 x1 x3 x5 x4 x6 b (col 0 j)) := by
  rw [val_main_v20_apply, val_main_v19_apply, val_main_cst_0_apply, val_main_v18_apply, val_main_v17_apply,
    val_main_cst_apply, val_main_v16_apply, val_main_v15_apply, pre_i]
  exact logistic_spelt _

/-- The forget gate. -/
theorem sig_f (b : Fin 4096) (j : Fin 2048) :
    val_main_v26 (F := Ideal) x0 x1 x3 x4 x5 x6 (ix2 b j) = Ideal.logistic (gate x0 x1 x3 x5 x4 x6 b (col 1 j)) := by
  rw [val_main_v26_apply, val_main_v25_apply, val_main_cst_2_apply, val_main_v24_apply, val_main_v23_apply,
    val_main_cst_1_apply, val_main_v22_apply, val_main_v21_apply, pre_f]
  exact logistic_spelt _

/-- The output gate. -/
theorem sig_o (b : Fin 4096) (j : Fin 2048) :
    val_main_v33 (F := Ideal) x0 x1 x3 x4 x5 x6 (ix2 b j) = Ideal.logistic (gate x0 x1 x3 x5 x4 x6 b (col 3 j)) := by
  rw [val_main_v33_apply, val_main_v32_apply, val_main_cst_4_apply, val_main_v31_apply, val_main_v30_apply,
    val_main_cst_3_apply, val_main_v29_apply, val_main_v28_apply, pre_o]
  exact logistic_spelt _

/-- The candidate: the hyperbolic tangent of its pre-activation. -/
theorem tanh_g (b : Fin 4096) (j : Fin 2048) :
    val_main_v27 (F := Ideal) x0 x1 x3 x4 x5 x6 (ix2 b j) = Ideal.tanh (gate x0 x1 x3 x5 x4 x6 b (col 2 j)) := by
  rw [val_main_v27_apply, pre_g]
  rfl

/-- The reference's second result is the new cell state. -/
theorem c_eq : val_main_v36 (F := Ideal) x0 x1 x2 x3 x4 x5 x6 = newC x0 x1 x2 x3 x5 x4 x6 := by
  funext i
  obtain ⟨b, j, rfl⟩ : ∃ (b : Fin 4096) (j : Fin 2048), i = ix2 b j := ⟨i 0, i 1, eq_ix2 i⟩
  rw [newC_ix2, val_main_v36_apply, val_main_v34_apply, val_main_v35_apply, sig_f, sig_i, tanh_g]
  rfl

/-- The reference's first result is the new hidden state. -/
theorem h_eq : val_main_v38 (F := Ideal) x0 x1 x2 x3 x4 x5 x6 = newH x0 x1 x2 x3 x5 x4 x6 := by
  funext i
  obtain ⟨b, j, rfl⟩ : ∃ (b : Fin 4096) (j : Fin 2048), i = ix2 b j := ⟨i 0, i 1, eq_ix2 i⟩
  rw [newH_ix2, val_main_v38_apply, val_main_v37_apply, sig_o, c_eq, newC_ix2]
  rfl

end Cert.Cell.Ref

end
-- ==== Proof.Pieces.lean ====
/-
  What one grid step leaves in the two output buffers.

  The body loads its six input blocks whole (the bias block through a one-row rectangle at the row the first grid
  coordinate names), computes, and stores each result through the whole output buffer, once. So the buffer of the first
  output holds the hidden-state payload and the buffer of the second the cell-state payload, as functions of the loaded
  blocks; whatever the buffers held before is overwritten (the body's two loads of its own outputs are never used).
-/
import proofs.«154391_j67078799229551_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The bias row the step reads: row `i 0` of the bias block, as a one-row block. -/
abbrev biasRow (i : grid0.Coords) (x4 : Vec F S8x1024 .f32) : Vec F S1x1024 .f32 :=
  View.ld x4 (Rect.unit (s := S8x1024) (k0_off1 i) S1x1024.size (k0_off1_inb i))

/-- The first output's buffer after the step: the hidden-state payload of the loaded blocks. -/
theorem out_h (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S8x1024 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole)
    (x0 : Vec F S512x2048 .f32) (x1 : Vec F S512x2048 .f32) (x2 : Vec F S1x2048x1024 .bf16) (x3 : Vec F S1x2048x1024 .bf16) (x4 : Vec F S8x1024 .f32) (x5 : Vec F S512x256 .f32) :
    out0_A_6 c i arg2 harg2 arg3 harg3 arg4 harg4 arg5 harg5 arg6 harg6 arg7 harg7 arg8 harg8 arg9 harg9 x0 x1 x2 x3 x4 x5 = k0_pay3 x0 x1 x5 x2 x3 (biasRow i x4) := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  rw [View.canon_unit_zero hz2]
  simp only [View.readAt_eq_ld, harg2.read_unread, harg3.read_unread, harg4.read_unread, harg5.read_unread, harg6.read_unread,
    harg7.read_unread, View.ld_unit_zero (S := S512x2048) hz2, View.ld_unit_zero (S := S512x256) hz2,
    View.ld_unit_zero (S := S1x2048x1024) hz3]

/-- The second output's buffer after the step: the cell-state payload of the loaded blocks. -/
theorem out_c (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S8x1024 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole)
    (x0 : Vec F S512x2048 .f32) (x1 : Vec F S512x2048 .f32) (x2 : Vec F S1x2048x1024 .bf16) (x3 : Vec F S1x2048x1024 .bf16) (x4 : Vec F S8x1024 .f32) (x5 : Vec F S512x256 .f32) :
    out0_A_7 c i arg2 harg2 arg3 harg3 arg4 harg4 arg5 harg5 arg6 harg6 arg7 harg7 arg8 harg8 arg9 harg9 x0 x1 x2 x3 x4 x5 = k0_pay2 x0 x1 x5 x2 x3 (biasRow i x4) := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5)]
  unfold kernelRun0_A
  dsimp only
  rw [View.canon_unit_zero hz2]
  simp only [View.readAt_eq_ld, harg2.read_unread, harg3.read_unread, harg4.read_unread, harg5.read_unread, harg6.read_unread,
    harg7.read_unread, View.ld_unit_zero (S := S512x2048) hz2, View.ld_unit_zero (S := S512x256) hz2,
    View.ld_unit_zero (S := S1x2048x1024) hz3]

end Cert.KernelIdeal.Pieces

end
-- ==== Proof.Payload.lean ====
/-
  The step's arithmetic read at one entry, on the extended reals.

  A step works on 512 batch rows and one tile of 256 features. Its weight blocks hold, for that tile, the four gates'
  columns side by side: 1024 columns, gate `g`'s feature `j` at column `g * 256 + j`, contraction-major. The block's
  affine map at row `p`, column `n` is

    pre p n = (sum_k x[p,k] * wx[k,n] + sum_k h[p,k] * wh[k,n]) + bias[n]

  (a change of float format is the identity here, a matrix product into a zero accumulator is the plain sum), and the
  two stored payloads are the cell's formulas over `pre` at the four columns of feature `j`.
-/
import proofs.«154391_j67078799229551_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- Column `g * 256 + j` of a step's 1024: feature `j` (within the tile) of gate `g`. -/
def lcol (g : Fin 4) (j : Fin 256) : Fin 1024 :=
  ⟨g.val * 256 + j.val, by have := g.isLt; have := j.isLt; omega⟩

theorem lcol_val (g : Fin 4) (j : Fin 256) : (lcol g j).val = g.val * 256 + j.val := rfl

/-! ## The matrix product of a step at an entry -/

theorem lhs0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide),
    dif_pos (show (0 : Fin S512x2048.rank) ∈ dot_S512x2048_S2048x1024_S512x1024_1_0_0_1_n_n.lhsNonContracting by decide)]
  rfl

theorem rhs1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide),
    dif_pos (show (1 : Fin S2048x1024.rank) ∈ dot_S512x2048_S2048x1024_S512x1024_1_0_0_1_n_n.rhsNonContracting by decide)]
  rfl

/-- A [512, 2048] by [2048, 1024] product into the zero block, at `(p, n)`: the sum over the 2048 of the products. -/
theorem mm_apply (a : FVec Ideal S512x2048 .bf16) (w : FVec Ideal S2048x1024 .bf16) (p : Fin 512) (n : Fin 1024) :
    matmul dot_S512x2048_S2048x1024_S512x1024_1_0_0_1_n_n none a w (constant (F := Ideal) S512x1024 .f32 0x00000000#32) (ix2 p n)
      = ∑ k : Fin 2048, a (ix2 p k) * w (ix2 k n) := by
  simp only [matmul]
  rw [Ideal.matmul_constant_zero_apply,
    ← Equiv.sum_comp (ValueIdx.contrEquiv1 dot_S512x2048_S2048x1024_S512x1024_1_0_0_1_n_n 2048 rfl rfl).symm]
  refine Finset.sum_congr rfl fun k _ => ?_
  have hk := ValueIdx.contrEquiv1_symm_val dot_S512x2048_S2048x1024_S512x1024_1_0_0_1_n_n 2048 rfl rfl k
  have el : dot_S512x2048_S2048x1024_S512x1024_1_0_0_1_n_n.lhsIdx (ix2 p n) ((ValueIdx.contrEquiv1 dot_S512x2048_S2048x1024_S512x1024_1_0_0_1_n_n 2048 rfl rfl).symm k) = ix2 p k :=
    funext fun a => Fin.ext (by
      match a with
      | ⟨0, _⟩ => exact lhs0 _ _
      | ⟨1, _⟩ => exact (dot_S512x2048_S2048x1024_S512x1024_1_0_0_1_n_n.lhsIdx_val_of_single rfl _ _).trans hk)
  have er : dot_S512x2048_S2048x1024_S512x1024_1_0_0_1_n_n.rhsIdx (ix2 p n) ((ValueIdx.contrEquiv1 dot_S512x2048_S2048x1024_S512x1024_1_0_0_1_n_n 2048 rfl rfl).symm k) = ix2 k n :=
    funext fun a => Fin.ext (by
      match a with
      | ⟨0, _⟩ => exact (dot_S512x2048_S2048x1024_S512x1024_1_0_0_1_n_n.rhsIdx_val_of_single rfl _ _).trans hk
      | ⟨1, _⟩ => exact rhs1 _ _)
  rw [el, er]

/-! ## The payloads at an entry -/

variable (v0 v2 : Vec Ideal S512x2048 .f32) (v4 : Vec Ideal S512x256 .f32) (v5 v7 : Vec Ideal S1x2048x1024 .bf16)
  (v10 : Vec Ideal S1x1024 .f32)

/-- The step's affine map at row `p`, column `n`. -/
def pre (p : Fin 512) (n : Fin 1024) : EReal :=
  ((∑ k : Fin 2048, v0 (ix2 p k) * v5 (ix3 (0 : Fin 1) k n)) + ∑ k : Fin 2048, v2 (ix2 p k) * v7 (ix3 (0 : Fin 1) k n))
    + v10 (ix2 (0 : Fin 1) n)

theorem pay1_apply (p : Fin 512) (n : Fin 1024) : k0_pay1 v0 v2 v5 v7 v10 (ix2 p n) = pre v0 v2 v5 v7 v10 p n := by
  unfold k0_pay1
  rw [addf_apply, addf_apply, mm_apply, mm_apply, broadcastTo_1b_ab_apply, shapeCast_a_1a_apply, shapeCast_1a_a_apply]
  simp only [truncf_apply, shapeCast_1ab_ab_apply]
  rfl

theorem logistic_apply {s : Shape} (v : FVec Ideal s .f32) (i : s.Idx) : logistic v i = Ideal.logistic (v i) := rfl
theorem tanh_apply {s : Shape} (v : FVec Ideal s .f32) (i : s.Idx) : tanh v i = Ideal.tanh (v i) := rfl

/-- A column slice of the step's affine map, at `(p, j)`: the map at the slice's column. -/
theorem slice_apply (o : Nat) (g : Fin 4) (hg : o = g.val * 256) (h : S512x1024.Slices ![0, o] S512x256) (p : Fin 512) (j : Fin 256) :
    extractStridedSlice S512x256 ![0, o] (k0_pay1 v0 v2 v5 v7 v10) h (ix2 p j) = pre v0 v2 v5 v7 v10 p (lcol g j) := by
  rw [slice2_axis1_apply o (k0_pay1 v0 v2 v5 v7 v10) h p j (lcol g j) (by rw [lcol_val, hg]), pay1_apply]

/-- The cell-state payload at `(p, j)`. -/
theorem pay2_apply (p : Fin 512) (j : Fin 256) : k0_pay2 v0 v2 v4 v5 v7 v10 (ix2 p j)
    = Ideal.logistic (pre v0 v2 v5 v7 v10 p (lcol 1 j)) * v4 (ix2 p j)
      + Ideal.logistic (pre v0 v2 v5 v7 v10 p (lcol 0 j)) * Ideal.tanh (pre v0 v2 v5 v7 v10 p (lcol 2 j)) := by
  unfold k0_pay2
  rw [addf_apply, mulf_apply, mulf_apply, logistic_apply, logistic_apply, tanh_apply,
    slice_apply v0 v2 v5 v7 v10 256 1 rfl, slice_apply v0 v2 v5 v7 v10 0 0 rfl, slice_apply v0 v2 v5 v7 v10 512 2 rfl]

/-- The hidden-state payload at `(p, j)`. -/
theorem pay3_apply (p : Fin 512) (j : Fin 256) : k0_pay3 v0 v2 v4 v5 v7 v10 (ix2 p j)
    = Ideal.logistic (pre v0 v2 v5 v7 v10 p (lcol 3 j)) * Ideal.tanh (k0_pay2 v0 v2 v4 v5 v7 v10 (ix2 p j)) := by
  unfold k0_pay3
  rw [mulf_apply, logistic_apply, tanh_apply, slice_apply v0 v2 v5 v7 v10 768 3 rfl]

end Cert.KernelIdeal.Payload

end
-- ==== Proof.Point.lean ====
/-
  One grid step computes the cell on its block.

  Step `(hi, bi)` handles batch rows `bi * 512 + p` and features `hi * 256 + j`. Suppose its six loaded blocks are what
  the whole arrays hold there: the two activation blocks are rows `bi * 512 + p` of `x` and `h`; the cell block is those
  rows at features `hi * 256 + j`; the two weight blocks hold at `(k, g * 256 + j)` the weight matrices' entry
  `(g * 2048 + hi * 256 + j, k)`; the bias row holds at `g * 256 + j` the sum of the two biases at `g * 2048 + hi * 256 + j`.
  Then the step's affine map at column `g * 256 + j` is the cell's `gate` at column `g * 2048 + (hi * 256 + j)` — the
  same four terms, grouped products first (regrouped by commutativity and associativity of the sum) — and the two
  stored payloads are the new cell and hidden states at `(bi * 512 + p, hi * 256 + j)`.
-/
import proofs.«154391_j67078799229551_2_alg».proof.Proof.Payload
import proofs.«154391_j67078799229551_2_alg».proof.Proof.Spec
import proofs.«154391_j67078799229551_2_alg».proof.Proof.Scalar

noncomputable section

namespace Cert.KernelIdeal.Point

open Cert.KernelIdeal Cert.KernelIdeal.Gen Cert.KernelIdeal.Payload Cert.Cell Idealize.ShloMosaic Idealize.ShloMosaic.ValueIdx

/-- Batch row `bi * 512 + p`: row `p` of batch block `bi`. -/
def brow (bi : Fin 8) (p : Fin 512) : Fin 4096 :=
  ⟨bi.val * 512 + p.val, by have := bi.isLt; have := p.isLt; omega⟩

theorem brow_val (bi : Fin 8) (p : Fin 512) : (brow bi p).val = bi.val * 512 + p.val := rfl

/-- Feature `hi * 256 + j`: feature `j` of tile `hi`. -/
def fcol (hi : Fin 8) (j : Fin 256) : Fin 2048 :=
  ⟨hi.val * 256 + j.val, by have := hi.isLt; have := j.isLt; omega⟩

theorem fcol_val (hi : Fin 8) (j : Fin 256) : (fcol hi j).val = hi.val * 256 + j.val := rfl

variable (X H C : Act) (Wx Wh : Wt) (bx bh : Bs)
variable (v0 v2 : Vec Ideal S512x2048 .f32) (v4 : Vec Ideal S512x256 .f32) (v5 v7 : Vec Ideal S1x2048x1024 .bf16)
  (v10 : Vec Ideal S1x1024 .f32) (hi bi : Fin 8)

/-- The step's affine map is the cell's, at the step's rows and the gates' columns of the step's features. -/
theorem pre_gate
    (h0 : ∀ (p : Fin 512) (k : Fin 2048), v0 (ix2 p k) = X (ix2 (brow bi p) k))
    (h2 : ∀ (p : Fin 512) (k : Fin 2048), v2 (ix2 p k) = H (ix2 (brow bi p) k))
    (h5 : ∀ (k : Fin 2048) (g : Fin 4) (j : Fin 256), v5 (ix3 (0 : Fin 1) k (lcol g j)) = Wx (ix2 (col g (fcol hi j)) k))
    (h7 : ∀ (k : Fin 2048) (g : Fin 4) (j : Fin 256), v7 (ix3 (0 : Fin 1) k (lcol g j)) = Wh (ix2 (col g (fcol hi j)) k))
    (h10 : ∀ (g : Fin 4) (j : Fin 256),
      v10 (ix2 (0 : Fin 1) (lcol g j)) = bx (ix1 (col g (fcol hi j))) + bh (ix1 (col g (fcol hi j))))
    (p : Fin 512) (g : Fin 4) (j : Fin 256) :
    pre v0 v2 v5 v7 v10 p (lcol g j) = gate X H Wx Wh bx bh (brow bi p) (col g (fcol hi j)) := by
  unfold pre gate
  simp only [h0, h2, h5, h7, h10]
  exact add_regroup _ _ _ _

/-- The cell-state payload at `(p, j)` is the new cell state at `(bi * 512 + p, hi * 256 + j)`. -/
theorem pay_c
    (h0 : ∀ (p : Fin 512) (k : Fin 2048), v0 (ix2 p k) = X (ix2 (brow bi p) k))
    (h2 : ∀ (p : Fin 512) (k : Fin 2048), v2 (ix2 p k) = H (ix2 (brow bi p) k))
    (h4 : ∀ (p : Fin 512) (j : Fin 256), v4 (ix2 p j) = C (ix2 (brow bi p) (fcol hi j)))
    (h5 : ∀ (k : Fin 2048) (g : Fin 4) (j : Fin 256), v5 (ix3 (0 : Fin 1) k (lcol g j)) = Wx (ix2 (col g (fcol hi j)) k))
    (h7 : ∀ (k : Fin 2048) (g : Fin 4) (j : Fin 256), v7 (ix3 (0 : Fin 1) k (lcol g j)) = Wh (ix2 (col g (fcol hi j)) k))
    (h10 : ∀ (g : Fin 4) (j : Fin 256),
      v10 (ix2 (0 : Fin 1) (lcol g j)) = bx (ix1 (col g (fcol hi j))) + bh (ix1 (col g (fcol hi j))))
    (p : Fin 512) (j : Fin 256) :
    k0_pay2 v0 v2 v4 v5 v7 v10 (ix2 p j) = cellC X H C Wx Wh bx bh (brow bi p) (fcol hi j) := by
  rw [pay2_apply, pre_gate X H Wx Wh bx bh v0 v2 v5 v7 v10 hi bi h0 h2 h5 h7 h10,
    pre_gate X H Wx Wh bx bh v0 v2 v5 v7 v10 hi bi h0 h2 h5 h7 h10,
    pre_gate X H Wx Wh bx bh v0 v2 v5 v7 v10 hi bi h0 h2 h5 h7 h10, h4]
  rfl

/-- The hidden-state payload at `(p, j)` is the new hidden state at `(bi * 512 + p, hi * 256 + j)`. -/
theorem pay_h
    (h0 : ∀ (p : Fin 512) (k : Fin 2048), v0 (ix2 p k) = X (ix2 (brow bi p) k))
    (h2 : ∀ (p : Fin 512) (k : Fin 2048), v2 (ix2 p k) = H (ix2 (brow bi p) k))
    (h4 : ∀ (p : Fin 512) (j : Fin 256), v4 (ix2 p j) = C (ix2 (brow bi p) (fcol hi j)))
    (h5 : ∀ (k : Fin 2048) (g : Fin 4) (j : Fin 256), v5 (ix3 (0 : Fin 1) k (lcol g j)) = Wx (ix2 (col g (fcol hi j)) k))
    (h7 : ∀ (k : Fin 2048) (g : Fin 4) (j : Fin 256), v7 (ix3 (0 : Fin 1) k (lcol g j)) = Wh (ix2 (col g (fcol hi j)) k))
    (h10 : ∀ (g : Fin 4) (j : Fin 256),
      v10 (ix2 (0 : Fin 1) (lcol g j)) = bx (ix1 (col g (fcol hi j))) + bh (ix1 (col g (fcol hi j))))
    (p : Fin 512) (j : Fin 256) :
    k0_pay3 v0 v2 v4 v5 v7 v10 (ix2 p j) = cellH X H C Wx Wh bx bh (brow bi p) (fcol hi j) := by
  rw [pay3_apply, pay_c X H C Wx Wh bx bh v0 v2 v4 v5 v7 v10 hi bi h0 h2 h4 h5 h7 h10,
    pre_gate X H Wx Wh bx bh v0 v2 v5 v7 v10 hi bi h0 h2 h5 h7 h10]
  rfl

end Cert.KernelIdeal.Point

end
-- ==== Proof.Prefix.lean ====
/-
  The arrays the launch receives that the program computes first, read at an entry.

  Each weight matrix [8192, 2048] holds the four gates' rows in consecutive groups of 2048. Before the launch it is cut
  into 8 tiles of 256 features: viewed as [4, 8, 256, 2048], its first two axes swapped, viewed as [8, 1024, 2048], its
  last two axes swapped to [8, 2048, 1024], and its float format changed (the identity on extended reals). So entry
  `(hi, k, g * 256 + j)` of the result is entry `(g * 2048 + hi * 256 + j, k)` of the matrix: tile `hi` holds, side by
  side, the four gates' columns of its 256 features, contraction-major.
  The two bias vectors are added and the sum is cut the same way: entry `(hi, g * 256 + j)` of the [8, 1024] result is
  the sum of the two biases at `g * 2048 + hi * 256 + j`.
-/
import proofs.«154391_j67078799229551_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Prefix

open Cert.KernelIdeal Cert.KernelIdeal.Gen Idealize.ShloMosaic Idealize.ShloMosaic.TcCoe Idealize.SL.Sem
open Idealize.ShloMosaic.ValueIdx Idealize.ShloMosaic.StableHlo

/-- Row `g * 2048 + hi * 256 + j` of a weight matrix (entry of a bias vector): gate `g`, tile `hi`, feature `j` of the tile. -/
def wrow (g : Fin 4) (hi : Fin 8) (j : Fin 256) : Fin 8192 :=
  ⟨g.val * 2048 + hi.val * 256 + j.val, by have := g.isLt; have := hi.isLt; have := j.isLt; omega⟩

theorem wrow_val (g : Fin 4) (hi : Fin 8) (j : Fin 256) : (wrow g hi j).val = g.val * 2048 + hi.val * 256 + j.val := rfl

/-- Column `g * 256 + j` of a tile's 1024. -/
def tcol (g : Fin 4) (j : Fin 256) : Fin 1024 :=
  ⟨g.val * 256 + j.val, by have := g.isLt; have := j.isLt; omega⟩

theorem tcol_val (g : Fin 4) (j : Fin 256) : (tcol g j).val = g.val * 256 + j.val := rfl

/-- A weight matrix cut into tiles, contraction-major. -/
def tiles (W : S8192x2048.Idx → EReal) : S8x2048x1024.Idx → EReal :=
  truncf (F := Ideal) .bf16
    (transpose S8x2048x1024 [0, 2, 1]
      (shapeCast S8x1024x2048
        (transpose S8x4x256x2048 [1, 0, 2, 3]
          (shapeCast S4x8x256x2048 W shapeCasts_S8192x2048_S4x8x256x2048)
          transposes_S4x8x256x2048_S8x4x256x2048_1_0_2_3)
        shapeCasts_S8x4x256x2048_S8x1024x2048)
      transposes_S8x1024x2048_S8x2048x1024_0_2_1 : FVec Ideal S8x2048x1024 .f32)
    bitsLt_bf16_f32

/-- Entry `(hi, k, g * 256 + j)` of the tiles is entry `(g * 2048 + hi * 256 + j, k)` of the matrix. -/
theorem tiles_apply (W : S8192x2048.Idx → EReal) (hi : Fin 8) (k : Fin 2048) (g : Fin 4) (j : Fin 256) :
    tiles W (ix3 hi k (tcol g j)) = W (ix2 (wrow g hi j) k) := by
  unfold tiles
  rw [truncf_apply, transpose_ix3_021_apply]
  refine (shapeCast_apply _ shapeCasts_S8x4x256x2048_S8x1024x2048 (ix3 hi (tcol g j) k) (ix4 hi g j k) ?_).trans ?_
  · rw [Shape.rowMajor_val_four, Shape.rowMajor_val_three]
    show ((hi.val * 4 + g.val) * 256 + j.val) * 2048 + k.val = (hi.val * 1024 + (tcol g j).val) * 2048 + k.val
    rw [tcol_val]; omega
  refine (transpose_apply [1, 0, 2, 3] _ transposes_S4x8x256x2048_S8x4x256x2048_1_0_2_3 (ix4 hi g j k) (ix4 g hi j k)
    (fun b => match b with | ⟨0, _⟩ => rfl | ⟨1, _⟩ => rfl | ⟨2, _⟩ => rfl | ⟨3, _⟩ => rfl)).trans ?_
  refine shapeCast_apply W shapeCasts_S8192x2048_S4x8x256x2048 (ix4 g hi j k) (ix2 (wrow g hi j) k) ?_
  rw [Shape.rowMajor_val_four, Shape.rowMajor_val_two]
  show (wrow g hi j).val * 2048 + k.val = ((g.val * 8 + hi.val) * 256 + j.val) * 2048 + k.val
  rw [wrow_val]; omega

/-- The two biases added and cut into tiles. -/
def biasTiles (b1 b2 : S8192.Idx → EReal) : S8x1024.Idx → EReal :=
  shapeCast S8x1024
    (transpose S8x4x256 [1, 0, 2]
      (shapeCast S4x8x256 (addf (F := Ideal) (φ := .f32) b1 b2) shapeCasts_S8192_S4x8x256)
      transposes_S4x8x256_S8x4x256_1_0_2)
    shapeCasts_S8x4x256_S8x1024

/-- Entry `(hi, g * 256 + j)` of the bias tiles is the sum of the two biases at `g * 2048 + hi * 256 + j`. -/
theorem biasTiles_apply (b1 b2 : S8192.Idx → EReal) (hi : Fin 8) (g : Fin 4) (j : Fin 256) :
    biasTiles b1 b2 (ix2 hi (tcol g j)) = b1 (ix1 (wrow g hi j)) + b2 (ix1 (wrow g hi j)) := by
  unfold biasTiles
  refine (shapeCast_apply _ shapeCasts_S8x4x256_S8x1024 (ix2 hi (tcol g j)) (ix3 hi g j) ?_).trans ?_
  · rw [Shape.rowMajor_val_three, Shape.rowMajor_val_two]
    show (hi.val * 4 + g.val) * 256 + j.val = hi.val * 1024 + (tcol g j).val
    rw [tcol_val]; omega
  refine (transpose_apply [1, 0, 2] _ transposes_S4x8x256_S8x4x256_1_0_2 (ix3 hi g j) (ix3 g hi j)
    (fun b => match b with | ⟨0, _⟩ => rfl | ⟨1, _⟩ => rfl | ⟨2, _⟩ => rfl)).trans ?_
  refine (shapeCast_apply _ shapeCasts_S8192_S4x8x256 (ix3 g hi j) (ix1 (wrow g hi j)) ?_).trans ?_
  · rw [Shape.rowMajor_val_three, Shape.rowMajor_val_one]
    show (wrow g hi j).val = (g.val * 8 + hi.val) * 256 + j.val
    rw [wrow_val]; omega
  rfl

/-! ## What the region finds -/

variable (m : (ℓ : Loc nD τ sig) → Buf (Elt Ideal) ℓ) (c : Dev nD)

/-- The first weight operand of the launch: the tiles of the first weight matrix. -/
theorem V_wx : (V m c main_v4 : S8x2048x1024.Idx → EReal) = tiles (m ((c : Thread nD τ).loc main_arg3)) := by
  dsimp only [Gen.V, Gen.hostOps0]
  after_results
  rfl

/-- The second weight operand: the tiles of the second weight matrix. -/
theorem V_wh : (V m c main_v9 : S8x2048x1024.Idx → EReal) = tiles (m ((c : Thread nD τ).loc main_arg5)) := by
  dsimp only [Gen.V, Gen.hostOps0]
  after_results
  rfl

/-- The bias operand: the tiles of the summed biases. -/
theorem V_bias : (V m c main_v13 : S8x1024.Idx → EReal)
    = biasTiles (m ((c : Thread nD τ).loc main_arg4)) (m ((c : Thread nD τ).loc main_arg6)) := by
  dsimp only [Gen.V, Gen.hostOps0]
  after_results
  rfl

end Cert.KernelIdeal.Prefix

end
-- ==== Proof.Whole.lean ====
/-
  From the grid's blocks to the whole result arrays.

  The grid is 8 by 8, feature tiles outermost: point `t` is step `(hi, bi) = (t / 8, t % 8)`. The activation windows
  fetch batch block `bi` (all 2048 columns), the weight windows fetch tile `hi` of the cut weight arrays, the bias window
  always fetches the whole [8, 1024] array (the body reads its row `hi`), and the cell-state input and both outputs use
  block `(bi, hi)` of 512 by 256. So at every point the loaded blocks are exactly what Point.lean assumes, the two
  stored blocks are the new cell and hidden states on block `(bi, hi)`, every point writes its block back, and the 64
  blocks tile the [4096, 2048] arrays: entry `(r, q)` lies in the block of point `(q / 256) * 8 + r / 512`. Hence after
  the run both result arrays hold the cell's functions of the argument arrays.
-/
import proofs.«154391_j67078799229551_2_alg».proof.Proof.Gen.KernelIdeal.Value
import proofs.«154391_j67078799229551_2_alg».proof.Proof.Pieces
import proofs.«154391_j67078799229551_2_alg».proof.Proof.Point
import proofs.«154391_j67078799229551_2_alg».proof.Proof.Prefix
import Idealize.ShloMosaic.Lib.Pipeline.Value

noncomputable section

namespace Cert.KernelIdeal.Whole

open Cert.KernelIdeal Cert.KernelIdeal.Gen Cert.KernelIdeal.Value Cert.KernelIdeal.Pieces Cert.KernelIdeal.Point
open Cert.KernelIdeal.Payload Cert.KernelIdeal.Prefix Cert.Cell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The new cell state of the argument arrays. -/
abbrev theC (c : Dev nD) : Act := newC (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))
/-- The new hidden state of the argument arrays. -/
abbrev theH (c : Dev nD) : Act := newH (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6))

/-- The two bias vectors, as arrays of extended reals. -/
abbrev biasX (c : Dev nD) : Bs := m ((c : Thread nD τ).loc main_arg4)
abbrev biasH (c : Dev nD) : Bs := m ((c : Thread nD τ).loc main_arg6)

/-! ## The grid -/

/-- The feature tile of point `t`. -/
def hiOf (t : Fin cfg0.N) : Fin 8 := ⟨t.val / 8, by have := t.isLt; have hN : cfg0.N = 64 := N_0; omega⟩
/-- The batch block of point `t`. -/
def biOf (t : Fin cfg0.N) : Fin 8 := ⟨t.val % 8, Nat.mod_lt _ (by decide)⟩

theorem hiOf_val (t : Fin cfg0.N) : (hiOf t).val = t.val / 8 := rfl
theorem biOf_val (t : Fin cfg0.N) : (biOf t).val = t.val % 8 := rfl

/-- The activation windows' block indices. -/
theorem f_act : ∀ t : Fin cfg0.N,
    win0_0.index t (0 : Fin 2) = t.val % 8 ∧ win0_0.index t (1 : Fin 2) = 0
    ∧ win0_1.index t (0 : Fin 2) = t.val % 8 ∧ win0_1.index t (1 : Fin 2) = 0 :=
  (by decide +kernel : ∀ t : Fin grid0.N, _)

/-- The weight windows' block indices. -/
theorem f_wt : ∀ t : Fin cfg0.N,
    win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

/-- The bias window's block index, and the row the body reads. -/
theorem f_bias : ∀ t : Fin cfg0.N,
    win0_4.index t (0 : Fin 2) = 0 ∧ win0_4.index t (1 : Fin 2) = 0
    ∧ k0_off1 (grid0.coords t) (0 : Fin 2) = t.val / 8 ∧ k0_off1 (grid0.coords t) (1 : Fin 2) = 0 :=
  (by decide +kernel : ∀ t : Fin grid0.N, _)

/-- The cell-state input's and the outputs' block indices. -/
theorem f_out : ∀ t : Fin cfg0.N,
    win0_5.index t (0 : Fin 2) = t.val % 8 ∧ win0_5.index t (1 : Fin 2) = t.val / 8
    ∧ win0_6.index t (0 : Fin 2) = t.val % 8 ∧ win0_6.index t (1 : Fin 2) = t.val / 8
    ∧ win0_7.index t (0 : Fin 2) = t.val % 8 ∧ win0_7.index t (1 : Fin 2) = t.val / 8 :=
  (by decide +kernel : ∀ t : Fin grid0.N, _)

/-! ## The blocks a point loads -/

theorem blk_x (c : Dev nD) (t : Fin cfg0.N) (p : Fin 512) (k : Fin 2048) :
    (iblk m c 0 t : Vec Ideal S512x2048 .f32) (ix2 p k) = ((m ((c : Thread nD τ).loc main_arg0)) : Act) (ix2 (brow (biOf t) p) k) := by
  obtain ⟨e0, e1, -, -⟩ := f_act t
  have e : (((cfg0.win 0).blk t).view.emb (ix2 p k) : S4096x2048.Idx) = ix2 (brow (biOf t) p) k := funext fun a => Fin.ext (by
    match a with
    | ⟨0, _⟩ => show win0_0.index t (0 : Fin 2) * 512 + 1 * p.val = t.val % 8 * 512 + p.val; rw [e0]; omega
    | ⟨1, _⟩ => show win0_0.index t (1 : Fin 2) * 2048 + 1 * k.val = k.val; rw [e1]; omega)
  unfold iblk
  rw [View.read_apply]
  show V m c main_arg0 (((cfg0.win 0).blk t).view.emb (ix2 p k)) = _
  rw [V_main_arg0, e]

theorem blk_h (c : Dev nD) (t : Fin cfg0.N) (p : Fin 512) (k : Fin 2048) :
    (iblk m c 1 t : Vec Ideal S512x2048 .f32) (ix2 p k) = ((m ((c : Thread nD τ).loc main_arg1)) : Act) (ix2 (brow (biOf t) p) k) := by
  obtain ⟨-, -, e0, e1⟩ := f_act t
  have e : (((cfg0.win 1).blk t).view.emb (ix2 p k) : S4096x2048.Idx) = ix2 (brow (biOf t) p) k := funext fun a => Fin.ext (by
    match a with
    | ⟨0, _⟩ => show win0_1.index t (0 : Fin 2) * 512 + 1 * p.val = t.val % 8 * 512 + p.val; rw [e0]; omega
    | ⟨1, _⟩ => show win0_1.index t (1 : Fin 2) * 2048 + 1 * k.val = k.val; rw [e1]; omega)
  unfold iblk
  rw [View.read_apply]
  show V m c main_arg1 (((cfg0.win 1).blk t).view.emb (ix2 p k)) = _
  rw [V_main_arg1, e]

theorem blk_c (c : Dev nD) (t : Fin cfg0.N) (p : Fin 512) (j : Fin 256) :
    (iblk m c 5 t : Vec Ideal S512x256 .f32) (ix2 p j) = ((m ((c : Thread nD τ).loc main_arg2)) : Act) (ix2 (brow (biOf t) p) (fcol (hiOf t) j)) := by
  obtain ⟨e0, e1, -, -, -, -⟩ := f_out t
  have e : (((cfg0.win 5).blk t).view.emb (ix2 p j) : S4096x2048.Idx) = ix2 (brow (biOf t) p) (fcol (hiOf t) j) := funext fun a => Fin.ext (by
    match a with
    | ⟨0, _⟩ => show win0_5.index t (0 : Fin 2) * 512 + 1 * p.val = t.val % 8 * 512 + p.val; rw [e0]; omega
    | ⟨1, _⟩ => show win0_5.index t (1 : Fin 2) * 256 + 1 * j.val = t.val / 8 * 256 + j.val; rw [e1]; omega)
  unfold iblk
  rw [View.read_apply]
  show V m c main_arg2 (((cfg0.win 5).blk t).view.emb (ix2 p j)) = _
  rw [V_main_arg2, e]

theorem wrow_col (g : Fin 4) (hi : Fin 8) (j : Fin 256) : wrow g hi j = col g (fcol hi j) :=
  Fin.ext (by rw [wrow_val, col_val, fcol_val]; omega)

theorem blk_wx (c : Dev nD) (t : Fin cfg0.N) (k : Fin 2048) (g : Fin 4) (j : Fin 256) :
    (iblk m c 2 t : Vec Ideal S1x2048x1024 .bf16) (ix3 (0 : Fin 1) k (lcol g j))
      = ((m ((c : Thread nD τ).loc main_arg3)) : Wt) (ix2 (col g (fcol (hiOf t) j)) k) := by
  obtain ⟨e0, e1, e2, -, -, -⟩ := f_wt t
  have e : (((cfg0.win 2).blk t).view.emb (ix3 (0 : Fin 1) k (lcol g j)) : S8x2048x1024.Idx) = ix3 (hiOf t) k (tcol g j) := funext fun a => Fin.ext (by
    match a with
    | ⟨0, _⟩ => show win0_2.index t (0 : Fin 3) * 1 + 1 * 0 = t.val / 8; rw [e0]; omega
    | ⟨1, _⟩ => show win0_2.index t (1 : Fin 3) * 2048 + 1 * k.val = k.val; rw [e1]; omega
    | ⟨2, _⟩ => show win0_2.index t (2 : Fin 3) * 1024 + 1 * (g.val * 256 + j.val) = g.val * 256 + j.val; rw [e2]; omega)
  unfold iblk
  rw [View.read_apply]
  show V m c main_v4 (((cfg0.win 2).blk t).view.emb (ix3 (0 : Fin 1) k (lcol g j))) = _
  rw [V_wx, e, tiles_apply, wrow_col]

theorem blk_wh (c : Dev nD) (t : Fin cfg0.N) (k : Fin 2048) (g : Fin 4) (j : Fin 256) :
    (iblk m c 3 t : Vec Ideal S1x2048x1024 .bf16) (ix3 (0 : Fin 1) k (lcol g j))
      = ((m ((c : Thread nD τ).loc main_arg5)) : Wt) (ix2 (col g (fcol (hiOf t) j)) k) := by
  obtain ⟨-, -, -, e0, e1, e2⟩ := f_wt t
  have e : (((cfg0.win 3).blk t).view.emb (ix3 (0 : Fin 1) k (lcol g j)) : S8x2048x1024.Idx) = ix3 (hiOf t) k (tcol g j) := funext fun a => Fin.ext (by
    match a with
    | ⟨0, _⟩ => show win0_3.index t (0 : Fin 3) * 1 + 1 * 0 = t.val / 8; rw [e0]; omega
    | ⟨1, _⟩ => show win0_3.index t (1 : Fin 3) * 2048 + 1 * k.val = k.val; rw [e1]; omega
    | ⟨2, _⟩ => show win0_3.index t (2 : Fin 3) * 1024 + 1 * (g.val * 256 + j.val) = g.val * 256 + j.val; rw [e2]; omega)
  unfold iblk
  rw [View.read_apply]
  show V m c main_v9 (((cfg0.win 3).blk t).view.emb (ix3 (0 : Fin 1) k (lcol g j))) = _
  rw [V_wh, e, tiles_apply, wrow_col]

theorem blk_b (c : Dev nD) (t : Fin cfg0.N) (g : Fin 4) (j : Fin 256) :
    biasRow (grid0.coords t) (iblk m c 4 t) (ix2 (0 : Fin 1) (lcol g j))
      = biasX m c (ix1 (col g (fcol (hiOf t) j))) + biasH m c (ix1 (col g (fcol (hiOf t) j))) := by
  obtain ⟨e0, e1, o0, o1⟩ := f_bias t
  have e : (((cfg0.win 4).blk t).view.emb ((Rect.unit (s := S8x1024) (k0_off1 (grid0.coords t)) S1x1024.size (k0_off1_inb (grid0.coords t))).emb (ix2 (0 : Fin 1) (lcol g j))) : S8x1024.Idx) = ix2 (hiOf t) (tcol g j) := funext fun a => Fin.ext (by
    match a with
    | ⟨0, _⟩ => show win0_4.index t (0 : Fin 2) * 8 + 1 * (k0_off1 (grid0.coords t) (0 : Fin 2) + 1 * 0) = t.val / 8; rw [e0, o0]; omega
    | ⟨1, _⟩ => show win0_4.index t (1 : Fin 2) * 1024 + 1 * (k0_off1 (grid0.coords t) (1 : Fin 2) + 1 * (g.val * 256 + j.val)) = g.val * 256 + j.val; rw [e1, o1]; omega)
  show (iblk m c 4 t : Vec Ideal S8x1024 .f32) ((Rect.unit (s := S8x1024) (k0_off1 (grid0.coords t)) S1x1024.size (k0_off1_inb (grid0.coords t))).emb (ix2 (0 : Fin 1) (lcol g j))) = _
  unfold iblk
  rw [View.read_apply]
  show V m c main_v13 (((cfg0.win 4).blk t).view.emb ((Rect.unit (s := S8x1024) (k0_off1 (grid0.coords t)) S1x1024.size (k0_off1_inb (grid0.coords t))).emb (ix2 (0 : Fin 1) (lcol g j)))) = _
  rw [V_bias, e, biasTiles_apply, wrow_col]

/-! ## What a point writes back -/

theorem emb_out7 (t : Fin cfg0.N) (p : Fin 512) (j : Fin 256) :
    (((cfg0.win 7).blk t).view.emb (ix2 p j) : S4096x2048.Idx) = ix2 (brow (biOf t) p) (fcol (hiOf t) j) := by
  obtain ⟨-, -, -, -, e0, e1⟩ := f_out t
  exact funext fun a => Fin.ext (by
    match a with
    | ⟨0, _⟩ => show win0_7.index t (0 : Fin 2) * 512 + 1 * p.val = t.val % 8 * 512 + p.val; rw [e0]; omega
    | ⟨1, _⟩ => show win0_7.index t (1 : Fin 2) * 256 + 1 * j.val = t.val / 8 * 256 + j.val; rw [e1]; omega)

theorem emb_out6 (t : Fin cfg0.N) (p : Fin 512) (j : Fin 256) :
    (((cfg0.win 6).blk t).view.emb (ix2 p j) : S4096x2048.Idx) = ix2 (brow (biOf t) p) (fcol (hiOf t) j) := by
  obtain ⟨-, -, e0, e1, -, -⟩ := f_out t
  exact funext fun a => Fin.ext (by
    match a with
    | ⟨0, _⟩ => show win0_6.index t (0 : Fin 2) * 512 + 1 * p.val = t.val % 8 * 512 + p.val; rw [e0]; omega
    | ⟨1, _⟩ => show win0_6.index t (1 : Fin 2) * 256 + 1 * j.val = t.val / 8 * 256 + j.val; rw [e1]; omega)

/-- What point `t` writes back to the second result is block `t` of the new cell state. -/
theorem flushed_c (c : Dev nD) (t : Fin cfg0.N) :
    (dats m 0 c).flushed 7 t = ((cfg0.win 7).blk t).view.read (Elt Ideal) (theC m c) := by
  rw [flushed7_A]
  rw [out_c (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)]
  funext y
  obtain ⟨p, j, rfl⟩ : ∃ (p : Fin 512) (j : Fin 256), y = ix2 p j := ⟨y 0, y 1, eq_ix2 (n0 := 512) (n1 := 256) y⟩
  show k0_pay2 (iblk m c 0 t) (iblk m c 1 t) (iblk m c 5 t) (iblk m c 2 t) (iblk m c 3 t) (biasRow (grid0.coords t) (iblk m c 4 t)) (ix2 p j) = theC m c (((cfg0.win 7).blk t).view.emb (ix2 p j))
  rw [emb_out7 t p j]
  exact pay_c (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (iblk m c 0 t) (iblk m c 1 t) (iblk m c 5 t) (iblk m c 2 t) (iblk m c 3 t) (biasRow (grid0.coords t) (iblk m c 4 t)) (hiOf t) (biOf t)
    (blk_x m c t) (blk_h m c t) (blk_c m c t) (blk_wx m c t) (blk_wh m c t) (blk_b m c t) p j

/-- What point `t` writes back to the first result is block `t` of the new hidden state. -/
theorem flushed_h (c : Dev nD) (t : Fin cfg0.N) :
    (dats m 0 c).flushed 6 t = ((cfg0.win 6).blk t).view.read (Elt Ideal) (theH m c) := by
  rw [flushed6_A]
  rw [out_h (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t)]
  funext y
  obtain ⟨p, j, rfl⟩ : ∃ (p : Fin 512) (j : Fin 256), y = ix2 p j := ⟨y 0, y 1, eq_ix2 (n0 := 512) (n1 := 256) y⟩
  show k0_pay3 (iblk m c 0 t) (iblk m c 1 t) (iblk m c 5 t) (iblk m c 2 t) (iblk m c 3 t) (biasRow (grid0.coords t) (iblk m c 4 t)) (ix2 p j) = theH m c (((cfg0.win 6).blk t).view.emb (ix2 p j))
  rw [emb_out6 t p j]
  exact pay_h (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg4)) (m ((c : Thread nD τ).loc main_arg6)) (iblk m c 0 t) (iblk m c 1 t) (iblk m c 5 t) (iblk m c 2 t) (iblk m c 3 t) (biasRow (grid0.coords t) (iblk m c 4 t)) (hiOf t) (biOf t)
    (blk_x m c t) (blk_h m c t) (blk_c m c t) (blk_wx m c t) (blk_wh m c t) (blk_b m c t) p j

/-! ## The blocks tile the arrays -/

/-- The point whose block holds entry `i`. -/
def ptOf (i : S4096x2048.Idx) : Fin cfg0.N :=
  ⟨(i 1).val / 256 * 8 + (i 0).val / 512, by
    have h0 : (i 0).val < 4096 := (i 0).isLt
    have h1 : (i 1).val < 2048 := (i 1).isLt
    have hN : cfg0.N = 64 := N_0
    omega⟩

theorem ptOf_val (i : S4096x2048.Idx) : (ptOf i).val = (i 1).val / 256 * 8 + (i 0).val / 512 := rfl

theorem mem_blk7 (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v14_1).slice (win0_7.rect t)).set ↔ _
  rw [View.set_slice_whole, Rect.mem_set_unit]
  exact Iff.rfl

theorem mem_blk6 (t : Fin cfg0.N) (i : S4096x2048.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v14_0).slice (win0_6.rect t)).set ↔ _
  rw [View.set_slice_whole, Rect.mem_set_unit]
  exact Iff.rfl

theorem cover7 (i : S4096x2048.Idx) : ∃ t : Fin cfg0.N, (cfg0.win 7).flush t = true ∧ i ∈ ((cfg0.win 7).blk t).view.set := by
  refine ⟨ptOf i, flush0_7 _, ?_⟩
  rw [mem_blk7]
  obtain ⟨-, -, -, -, e0, e1⟩ := f_out (ptOf i)
  have hv := ptOf_val i
  have h0 : (i 0).val < 4096 := (i 0).isLt
  have h1 : (i 1).val < 2048 := (i 1).isLt
  intro a
  match a with
  | ⟨0, _⟩ =>
    show win0_7.index (ptOf i) (0 : Fin 2) * 512 ≤ (i 0).val ∧ (i 0).val < win0_7.index (ptOf i) (0 : Fin 2) * 512 + 512
    rw [e0, hv]; omega
  | ⟨1, _⟩ =>
    show win0_7.index (ptOf i) (1 : Fin 2) * 256 ≤ (i 1).val ∧ (i 1).val < win0_7.index (ptOf i) (1 : Fin 2) * 256 + 256
    rw [e1, hv]; omega

theorem cover6 (i : S4096x2048.Idx) : ∃ t : Fin cfg0.N, (cfg0.win 6).flush t = true ∧ i ∈ ((cfg0.win 6).blk t).view.set := by
  refine ⟨ptOf i, flush0_6 _, ?_⟩
  rw [mem_blk6]
  obtain ⟨-, -, e0, e1, -, -⟩ := f_out (ptOf i)
  have hv := ptOf_val i
  have h0 : (i 0).val < 4096 := (i 0).isLt
  have h1 : (i 1).val < 2048 := (i 1).isLt
  intro a
  match a with
  | ⟨0, _⟩ =>
    show win0_6.index (ptOf i) (0 : Fin 2) * 512 ≤ (i 0).val ∧ (i 0).val < win0_6.index (ptOf i) (0 : Fin 2) * 512 + 512
    rw [e0, hv]; omega
  | ⟨1, _⟩ =>
    show win0_6.index (ptOf i) (1 : Fin 2) * 256 ≤ (i 1).val ∧ (i 1).val < win0_6.index (ptOf i) (1 : Fin 2) * 256 + 256
    rw [e1, hv]; omega

/-- After the run the second result array is the new cell state. -/
theorem final_c (c : Dev nD) : (dats m 0 c).arrAt 7 cfg0.N = theC m c :=
  (dats m 0 c).arrAt_eq_of_cover 7 (theC m c) (fun t _ => flushed_c m c t) cover7

/-- After the run the first result array is the new hidden state. -/
theorem final_h (c : Dev nD) : (dats m 0 c).arrAt 6 cfg0.N = theH m c :=
  (dats m 0 c).arrAt_eq_of_cover 6 (theH m c) (fun t _ => flushed_h m c t) cover6

/-! ## The run, read -/

/-- Every weakly fair execution ends with the two result arrays at the cell's functions of the argument arrays, the
    arguments unchanged. -/
theorem run : θ_run defs (onTc (τ := τ) (main (F := Ideal))) ⟨m, fun _ => 0, ρ⟩ fun r => ∀ c : Dev nD,
      r.2.mem ((c : Thread nD τ).loc main_v14_0) = theH m c
      ∧ r.2.mem ((c : Thread nD τ).loc main_v14_1) = theC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_h m c), (h c).2.1.trans (final_c m c), (h c).2.2⟩)
    (run_blocks m ρ)

end Cert.KernelIdeal.Whole

end
-- ==== Proof.lean ====
/-
  The claim: a recurrent cell computed tile by tile against the same cell computed on whole arrays.

  Both programs take activations `x`, `h` and a cell state `c` ([4096, 2048]), two weight matrices ([8192, 2048]) and two
  bias vectors ([8192]), and return the new hidden and cell states

    gates = x Wx^T + bx + h Wh^T + bh            (8192 columns: input, forget, candidate, output gate, 2048 each)
    c'    = logistic(f) * c + logistic(i) * tanh(g)
    h'    = logistic(o) * tanh(c').

  The kernel first cuts each weight matrix into 8 tiles of 256 features holding the four gates' columns side by side, and
  adds the two biases; its grid of 8 by 8 steps computes, per step, 512 batch rows of one tile: two matrix products into
  zero accumulators, their sum plus the summed bias row, the four column slices, and the cell's formulas. On the extended
  reals a change of float format is the identity and a matrix product is the plain sum, so the only difference from the
  reference is the grouping of the four-term gate sum — (p + r) + (q + s) against ((p + q) + r) + s — which commutativity
  and associativity of the sum remove at every extended real; the logistic function is one function on both sides (the
  reference spells it 1 / (1 + exp (-g))). No finiteness of the inputs is used.

  Modules: Scalar (the two scalar laws), Spec (the cell as functions of whole arrays), RefSide (the reference computes
  it), Payload (the step's arithmetic at an entry), Pieces (what a step leaves in its output buffers), Prefix (the cut
  weights and bias at an entry), Point (a step computes the cell on its block), Whole (the blocks tile the arrays: the
  kernel's run ends at the cell's functions). The idealized kernel is the kernel's own text read on the
  extended reals (no operation was rewritten), so the idealization claim is trivial.
-/
import proofs.«154391_j67078799229551_2_alg».proof.Defs
import proofs.«154391_j67078799229551_2_alg».proof.Proof.Gen.Kernel
import proofs.«154391_j67078799229551_2_alg».proof.Proof.Gen.Kernel.Skeleton
import proofs.«154391_j67078799229551_2_alg».proof.Proof.Gen.Kernel.Launch
import proofs.«154391_j67078799229551_2_alg».proof.Proof.Gen.Kernel.Points
import proofs.«154391_j67078799229551_2_alg».proof.Proof.Gen.Kernel.Frame
import proofs.«154391_j67078799229551_2_alg».proof.Proof.Gen.KernelIdeal
import proofs.«154391_j67078799229551_2_alg».proof.Proof.Gen.KernelIdeal.Skeleton
import proofs.«154391_j67078799229551_2_alg».proof.Proof.Gen.KernelIdeal.Launch
import proofs.«154391_j67078799229551_2_alg».proof.Proof.Gen.KernelIdeal.Points
import proofs.«154391_j67078799229551_2_alg».proof.Proof.Gen.KernelIdeal.Frame
import proofs.«154391_j67078799229551_2_alg».proof.Proof.Gen.ReferenceIdeal
import proofs.«154391_j67078799229551_2_alg».proof.Proof.Gen.Pre_finite_inputs
import proofs.«154391_j67078799229551_2_alg».proof.Proof.Gen.KernelIdeal.Value
import proofs.«154391_j67078799229551_2_alg».proof.Proof.Gen.ReferenceIdeal.Run
import proofs.«154391_j67078799229551_2_alg».proof.Proof.Gen.ReferenceIdeal.Read
import proofs.«154391_j67078799229551_2_alg».proof.Proof.RefSide
import proofs.«154391_j67078799229551_2_alg».proof.Proof.Whole
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- No operation of the kernel was rewritten for its idealization: nothing to preserve. -/
theorem preserves : Cert.preserves_Kernel_KernelIdeal := trivial

/-- On the extended reals the kernel's two result arrays end at the new hidden and cell states of its arguments
    (Whole.lean) and the reference's at the same functions of arguments that agree (RefSide.lean). -/
theorem algebraic : Cert.algebraic_KernelIdeal_ReferenceIdeal := by
  intro m ρ m' ρ' _ hagree
  refine ⟨fun c => Cert.KernelIdeal.Whole.theH m c, fun c => Cert.KernelIdeal.Whole.theC m c,
    Cert.KernelIdeal.Whole.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    refine (Cert.ReferenceIdeal.Read.val_main_v38_eq m' c).trans ?_
    rw [Cert.Cell.Ref.h_eq, a0, a1, a2, a3, a4, a5, a6]
  · obtain ⟨a0, a1, a2, a3, a4, a5, a6⟩ := hagree c
    refine (Cert.ReferenceIdeal.Read.val_main_v36_eq _ _ _ _ _ _ _).trans ?_
    rw [Cert.Cell.Ref.c_eq, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
